-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8x2048x1024 .f32) (main_arg1 : FVec F S8x4096x1024 .f32) (main_arg2 : FVec F S8x4096 .f32) (main_arg3 : FVec F S8x1024x4096 .f32) (main_arg4 : FVec F S8x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x1024x4096 .f32 := Host.absf main_arg3
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_arg4 main_v13 main_v16
-- ==== Kernel.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S8x1x4096 : Shape := ⟨3, ![8, 1, 4096]⟩
abbrev S8x1x1024 : Shape := ⟨3, ![8, 1, 1024]⟩
abbrev S1x128x1024 : Shape := ⟨3, ![1, 128, 1024]⟩
abbrev S1x4096x1024 : Shape := ⟨3, ![1, 4096, 1024]⟩
abbrev S1x1x4096 : Shape := ⟨3, ![1, 1, 4096]⟩
abbrev S1x1024x4096 : Shape := ⟨3, ![1, 1024, 4096]⟩
abbrev S1x1x1024 : Shape := ⟨3, ![1, 1, 1024]⟩
abbrev S128x1024 : Shape := ⟨2, ![128, 1024]⟩
abbrev S4096x1024 : Shape := ⟨2, ![4096, 1024]⟩
abbrev S1x4096 : Shape := ⟨2, ![1, 4096]⟩
abbrev S128x4096 : Shape := ⟨2, ![128, 4096]⟩
abbrev S1024x4096 : Shape := ⟨2, ![1024, 4096]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096, .f32⟩
  | .hbm, ⟨3, _⟩ => ⟨S8x1024x4096, .f32⟩
  | .hbm, ⟨4, _⟩ => ⟨S8x1024, .f32⟩
  | .hbm, ⟨5, _⟩ => ⟨S8x4096x1024, .bf16⟩
  | .hbm, ⟨6, _⟩ => ⟨S8x1024x4096, .bf16⟩
  | .hbm, ⟨7, _⟩ => ⟨S8x1x4096, .f32⟩
  | .hbm, ⟨8, _⟩ => ⟨S8x1x1024, .f32⟩
  | .hbm, ⟨9, _⟩ => ⟨S8x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x4096x1024, .bf16⟩
  | .local _ .vmem, ⟨3, _⟩ => ⟨S1x4096x1024, .bf16⟩
  | .local _ .vmem, ⟨4, _⟩ => ⟨S1x1x4096, .f32⟩
  | .local _ .vmem, ⟨5, _⟩ => ⟨S1x1x4096, .f32⟩
  | .local _ .vmem, ⟨6, _⟩ => ⟨S1x1024x4096, .bf16⟩
  | .local _ .vmem, ⟨7, _⟩ => ⟨S1x1024x4096, .bf16⟩
  | .local _ .vmem, ⟨8, _⟩ => ⟨S1x1x1024, .f32⟩
  | .local _ .vmem, ⟨9, _⟩ => ⟨S1x1x1024, .f32⟩
  | .local _ .vmem, ⟨10, _⟩ => ⟨S1x128x1024, .f32⟩
  | .local _ .vmem, ⟨11, _⟩ => ⟨S1x128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S8x4096_S8x1x4096 : S8x4096.ShapeCasts S8x1x4096
  shapeCasts_S8x1024_S8x1x1024 : S8x1024.ShapeCasts S8x1x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S128x4096 : S1x4096.Broadcasts S128x4096
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S128x1024 : S1x1024.Broadcasts S128x1024
  shapeCasts_S128x1024_S1x128x1024 : S128x1024.ShapeCasts S1x128x1024
  dot_S128x1024_S4096x1024_S128x4096_1_1_0_0_n_n_wf : DotDims.WF S128x1024 S4096x1024 S128x4096 [1] [1] [0] [0] [] []
  dot_S128x4096_S1024x4096_S128x1024_1_1_0_0_n_n_wf : DotDims.WF S128x4096 S1024x4096 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x2048x1024.size a
  hwx0_0 : ∀ i : grid0.Coords, EltTy.bits .f32 = 32 ∨ (Rect.block (s := S8x2048x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S8x4096x1024.size a
  hwx0_1 : ∀ i : grid0.Coords, EltTy.bits .bf16 = 32 ∨ (Rect.block (s := S8x4096x1024) S1x4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x4096.size a ≤ S8x1024x4096.size a
  hwx0_3 : ∀ i : grid0.Coords, EltTy.bits .bf16 = 32 ∨ (Rect.block (s := S8x1024x4096) S1x1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1024.size a ≤ S8x2048x1024.size a
  hwx0_5 : ∀ i : grid0.Coords, EltTy.bits .f32 = 32 ∨ (Rect.block (s := S8x2048x1024) S1x128x1024.size (cc0_transform_5 i) (hinb0_5 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S8x2048x4096 : Shape := ⟨3, ![8, 2048, 4096]⟩
abbrev S8x1x4096 : Shape := ⟨3, ![8, 1, 4096]⟩
abbrev S8x1x1024 : Shape := ⟨3, ![8, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096, .f32⟩
  | .hbm, ⟨3, _⟩ => ⟨S8x1024x4096, .f32⟩
  | .hbm, ⟨4, _⟩ => ⟨S8x1024, .f32⟩
  | .hbm, ⟨5, _⟩ => ⟨S8x2048x4096, .f32⟩
  | .hbm, ⟨6, _⟩ => ⟨S8x1x4096, .f32⟩
  | .hbm, ⟨7, _⟩ => ⟨S8x2048x4096, .f32⟩
  | .hbm, ⟨8, _⟩ => ⟨S8x2048x4096, .f32⟩
  | .hbm, ⟨9, _⟩ => ⟨S8x2048x1024, .f32⟩
  | .hbm, ⟨10, _⟩ => ⟨S8x1x1024, .f32⟩
  | .hbm, ⟨11, _⟩ => ⟨S8x2048x1024, .f32⟩
  | .hbm, ⟨12, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S8x4096_S8x1x4096_0_2 : S8x4096.BroadcastsInDim S8x1x4096 (![0, 2] : Fin 2 → Fin S8x1x4096.rank)
  bcast_S8x1x4096_S8x2048x4096_0_1_2 : S8x1x4096.BroadcastsInDim S8x2048x4096 (![0, 1, 2] : Fin 3 → Fin S8x2048x4096.rank)
  bcast_S8x1024_S8x1x1024_0_2 : S8x1024.BroadcastsInDim S8x1x1024 (![0, 2] : Fin 2 → Fin S8x1x1024.rank)
  bcast_S8x1x1024_S8x2048x1024_0_1_2 : S8x1x1024.BroadcastsInDim S8x2048x1024 (![0, 1, 2] : Fin 3 → Fin S8x2048x1024.rank)
  dot_S8x2048x1024_S8x4096x1024_S8x2048x4096_2_2_1_1_0_0_wf : DotDims.WF S8x2048x1024 S8x4096x1024 S8x2048x4096 [2] [2] [1] [1] [0] [0]
  dot_S8x2048x4096_S8x1024x4096_S8x2048x1024_2_2_1_1_0_0_wf : DotDims.WF S8x2048x4096 S8x1024x4096 S8x2048x1024 [2] [2] [1] [1] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x1024x4096_S8x2048x1024_2_2_1_1_0_0 : DotDims S8x2048x4096 S8x1024x4096 S8x2048x1024 where
  lhsContracting := [2]
  rhsContracting := [2]
  lhsNonContracting := [1]
  rhsNonContracting := [1]
  lhsBatch := [0]
  rhsBatch := [0]
  wf := dot_S8x2048x4096_S8x1024x4096_S8x2048x1024_2_2_1_1_0_0_wf

class Facts : Prop extends Facts₀ where

variable [Facts]
-- ==== Proof.Spec.lean ====
/-
  The function both programs compute, index by index on the extended reals.

  The token array `x` has 8 groups of 2048 rows of width 1024. Group `g` has its own two affine layers: the first maps a
  row to width 4096 with the weight matrix `W1[g]` (4096 × 1024, applied as `x · W1ᵀ`) and the bias `b1[g]`, the second
  maps it back to width 1024 with `W2[g]` (1024 × 4096) and `b2[g]`. No nonlinearity sits between them:

    hidden[g, r, o] = (Σ_k x[g, r, k] · W1[g, o, k]) + b1[g, o]
    out[g, r, h]    = (Σ_o hidden[g, r, o] · W2[g, h, o]) + b2[g, h]

  Both sums are finite sums in the commutative additive monoid of the extended reals, so neither an order of summation
  nor a tiling of the rows is visible in them.
-/
import Idealize.ShloMosaic.PureOps.Ideal
import Idealize.ShloMosaic.Lib.ValueIdx

noncomputable section

namespace Cert.TwoLayer

open Idealize.ShloMosaic Idealize.ShloMosaic.ValueIdx

/-- The tokens and the result: 8 groups × 2048 rows × 1024. -/
abbrev STok : Shape := ⟨3, ![8, 2048, 1024]⟩
/-- The first layer's weights: 8 groups × 4096 outputs × 1024 inputs. -/
abbrev SW1 : Shape := ⟨3, ![8, 4096, 1024]⟩
/-- The first layer's bias: 8 groups × 4096. -/
abbrev SB1 : Shape := ⟨2, ![8, 4096]⟩
/-- The second layer's weights: 8 groups × 1024 outputs × 4096 inputs. -/
abbrev SW2 : Shape := ⟨3, ![8, 1024, 4096]⟩
/-- The second layer's bias: 8 groups × 1024. -/
abbrev SB2 : Shape := ⟨2, ![8, 1024]⟩

/-- The first layer at group `g`, row `r`, output `o`: the row's inner product with row `o` of the group's first
    weight matrix, plus the bias. -/
def hidden (x : STok.Idx → EReal) (W1 : SW1.Idx → EReal) (b1 : SB1.Idx → EReal) (g : Fin 8) (r : Fin 2048) (o : Fin 4096) : EReal :=
  (∑ k : Fin 1024, x (ix3 g r k) * W1 (ix3 g o k)) + b1 (ix2 g o)

/-- The second layer at group `g`, row `r`, output `h`, over the first layer's row. -/
def out (x : STok.Idx → EReal) (W1 : SW1.Idx → EReal) (b1 : SB1.Idx → EReal) (W2 : SW2.Idx → EReal) (b2 : SB2.Idx → EReal)
    (g : Fin 8) (r : Fin 2048) (h : Fin 1024) : EReal :=
  (∑ o : Fin 4096, hidden x W1 b1 g r o * W2 (ix3 g h o)) + b2 (ix2 g h)

/-- The whole result array. -/
def twoLayer (x : STok.Idx → EReal) (W1 : SW1.Idx → EReal) (b1 : SB1.Idx → EReal) (W2 : SW2.Idx → EReal) (b2 : SB2.Idx → EReal) :
    STok.Idx → EReal :=
  fun i => out x W1 b1 W2 b2 (i 0) (i 1) (i 2)

/-- `twoLayer` at an index given by coordinates. -/
theorem twoLayer_at (x : STok.Idx → EReal) (W1 : SW1.Idx → EReal) (b1 : SB1.Idx → EReal) (W2 : SW2.Idx → EReal) (b2 : SB2.Idx → EReal)
    (g : Fin 8) (r : Fin 2048) (h : Fin 1024) :
    twoLayer x W1 b1 W2 b2 (ix3 g r h) = (∑ o : Fin 4096, hidden x W1 b1 g r o * W2 (ix3 g h o)) + b2 (ix2 g h) := rfl

/-- The first layer written out. -/
theorem hidden_at (x : STok.Idx → EReal) (W1 : SW1.Idx → EReal) (b1 : SB1.Idx → EReal) (g : Fin 8) (r : Fin 2048) (o : Fin 4096) :
    hidden x W1 b1 g r o = (∑ k : Fin 1024, x (ix3 g r k) * W1 (ix3 g o k)) + b1 (ix2 g o) := rfl

end Cert.TwoLayer

end
-- ==== Proof.RefValue.lean ====
/-
  The reference's result is `twoLayer` of its five arguments.

  The reference is two batched products (batch axis the group, contracted axis the last one of both operands), each
  followed by the addition of a bias that is first given a unit row axis and then repeated down the 2048 rows. Read at an
  index (g, r, h): the second product sums over `o` the first layer's entry at (g, r, o) times `W2[g, h, o]`; the first
  layer's entry is the first product's sum over `k` of `x[g, r, k] · W1[g, o, k]` plus the bias read at (g, o) through the
  two repeats. That is `Cert.TwoLayer.out` term for term; only the indices, which the reading lemmas compose from
  coordinates, have to be recognised as the indices `twoLayer` writes.
-/
import proofs.«104736_j37632503447554_1_alg».proof.Proof.Gen.ReferenceIdeal.Read
import proofs.«104736_j37632503447554_1_alg».proof.Proof.Spec

noncomputable section

namespace Cert.ReferenceIdeal.RefValue

open Cert.ReferenceIdeal Cert.ReferenceIdeal.Read Cert.TwoLayer
open Idealize.ShloMosaic Idealize.ShloMosaic.ValueIdx

/-- The second product's left operand index at (g, r, h), contraction coordinate `o`, is (g, r, o). -/
theorem lidx4 (g : Fin 8) (r : Fin 2048) (h : Fin 1024) (o : Fin 4096) : lidx_main_v4 (ix3 g r h) o = ix3 g r o :=
  funext fun a => Fin.ext (by match a with | ⟨0, _⟩ => rfl | ⟨1, _⟩ => rfl | ⟨2, _⟩ => rfl)

/-- Its right operand index is (g, h, o). -/
theorem ridx4 (g : Fin 8) (r : Fin 2048) (h : Fin 1024) (o : Fin 4096) : ridx_main_v4 (ix3 g r h) o = ix3 g h o :=
  funext fun a => Fin.ext (by match a with | ⟨0, _⟩ => rfl | ⟨1, _⟩ => rfl | ⟨2, _⟩ => rfl)

/-- The first product's left operand index at (g, r, o), contraction coordinate `k`, is (g, r, k). -/
theorem lidx0 (g : Fin 8) (r : Fin 2048) (o : Fin 4096) (k : Fin 1024) : lidx_main_v0 (ix3 g r o) k = ix3 g r k :=
  funext fun a => Fin.ext (by match a with | ⟨0, _⟩ => rfl | ⟨1, _⟩ => rfl | ⟨2, _⟩ => rfl)

/-- Its right operand index is (g, o, k). -/
theorem ridx0 (g : Fin 8) (r : Fin 2048) (o : Fin 4096) (k : Fin 1024) : ridx_main_v0 (ix3 g r o) k = ix3 g o k :=
  funext fun a => Fin.ext (by match a with | ⟨0, _⟩ => rfl | ⟨1, _⟩ => rfl | ⟨2, _⟩ => rfl)

/-- The first bias, repeated down the rows, is read at (g, o) whatever the row. -/
theorem bidx1 (g : Fin 8) (r : Fin 2048) (o : Fin 4096) : idx_main_v1 (idx_main_v2 (ix3 g r o)) = ix2 g o :=
  funext fun a => Fin.ext (by match a with | ⟨0, _⟩ => rfl | ⟨1, _⟩ => rfl)

/-- The second bias likewise at (g, h). -/
theorem bidx2 (g : Fin 8) (r : Fin 2048) (h : Fin 1024) : idx_main_v5 (idx_main_v6 (ix3 g r h)) = ix2 g h :=
  funext fun a => Fin.ext (by match a with | ⟨0, _⟩ => rfl | ⟨1, _⟩ => rfl)

/-- The reference's last stage, as a function of the five arguments, is `twoLayer`. -/
theorem reference_eq (x : (⟨S8x2048x1024, .f32⟩ : BufTy).Contents (Elt Ideal)) (W1 : (⟨S8x4096x1024, .f32⟩ : BufTy).Contents (Elt Ideal))
    (b1 : (⟨S8x4096, .f32⟩ : BufTy).Contents (Elt Ideal)) (W2 : (⟨S8x1024x4096, .f32⟩ : BufTy).Contents (Elt Ideal))
    (b2 : (⟨S8x1024, .f32⟩ : BufTy).Contents (Elt Ideal)) :
    val_main_v7 (F := Ideal) x W1 b1 W2 b2 = twoLayer x W1 b1 W2 b2 := by
  funext i
  obtain ⟨g, r, h, rfl⟩ : ∃ (g : Fin 8) (r : Fin 2048) (h : Fin 1024), i = ix3 g r h := ⟨i 0, i 1, i 2, eq_ix3 i⟩
  rw [val_main_v7_apply, val_main_v4_apply, val_main_v6_apply, val_main_v5_apply, bidx2]
  show _ + _ = (∑ o : Fin 4096, hidden x W1 b1 g r o * W2 (ix3 g h o)) + b2 (ix2 g h)
  congr 1
  refine Finset.sum_congr rfl fun o _ => ?_
  rw [lidx4, ridx4, val_main_v3_apply, val_main_v0_apply, val_main_v2_apply, val_main_v1_apply, bidx1]
  simp only [lidx0, ridx0]
  rfl

end Cert.ReferenceIdeal.RefValue

end
-- ==== Proof.BodyValue.lean ====
/-
  What the kernel body computes from the blocks it loads, read at one index.

  At a grid point the body holds one group's 128 rows of tokens (a [1, 128, 1024] block), the group's two weight matrices
  whole ([1, 4096, 1024] and [1, 1024, 4096]) and its two biases as single rows ([1, 1, 4096] and [1, 1, 1024]). It drops the
  unit group axis of each, multiplies the rows into the first weight matrix along their last axes into a zero accumulator,
  adds the first bias row to every row, multiplies the result into the second weight matrix the same way, adds the second
  bias row, and puts the unit axis back. A change of float format is the identity on the extended reals and a product
  into a zero accumulator is the bare sum over the contracted coordinate, so entry (0, p, h) of what is stored is

    (Σ_o ((Σ_k x[0, p, k] · W1[0, o, k]) + b1[0, 0, o]) · W2[0, h, o]) + b2[0, 0, h].
-/
import proofs.«104736_j37632503447554_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two products' operand indices: output (row, column), contracted coordinate k ↦ (row, k) and (column, k) -/

theorem d1_lhs0 (i : S128x4096.Idx) (q : dot_S128x1024_S4096x1024_S128x4096_1_1_0_0_n_n.contr.Idx) : (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem d1_lhs1 (i : S128x4096.Idx) (q : dot_S128x1024_S4096x1024_S128x4096_1_1_0_0_n_n.contr.Idx) : (dot_S128x1024_S4096x1024_S128x4096_1_1_0_0_n_n.lhsIdx i q 1).val = (q ⟨0, by decide⟩).val :=
  dot_S128x1024_S4096x1024_S128x4096_1_1_0_0_n_n.lhsIdx_val_of_single rfl i q
theorem d1_rhs0 (i : S128x4096.Idx) (q : dot_S128x1024_S4096x1024_S128x4096_1_1_0_0_n_n.contr.Idx) : (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem d1_rhs1 (i : S128x4096.Idx) (q : dot_S128x1024_S4096x1024_S128x4096_1_1_0_0_n_n.contr.Idx) : (dot_S128x1024_S4096x1024_S128x4096_1_1_0_0_n_n.rhsIdx i q 1).val = (q ⟨0, by decide⟩).val :=
  dot_S128x1024_S4096x1024_S128x4096_1_1_0_0_n_n.rhsIdx_val_of_single rfl i q

theorem d2_lhs0 (i : S128x1024.Idx) (q : dot_S128x4096_S1024x4096_S128x1024_1_1_0_0_n_n.contr.Idx) : (dot_S128x4096_S1024x4096_S128x1024_1_1_0_0_n_n.lhsIdx i q 0).val = (i 0).val := by
  unfold DotDims.lhsIdx
  rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
  rfl
theorem d2_lhs1 (i : S128x1024.Idx) (q : dot_S128x4096_S1024x4096_S128x1024_1_1_0_0_n_n.contr.Idx) : (dot_S128x4096_S1024x4096_S128x1024_1_1_0_0_n_n.lhsIdx i q 1).val = (q ⟨0, by decide⟩).val :=
  dot_S128x4096_S1024x4096_S128x1024_1_1_0_0_n_n.lhsIdx_val_of_single rfl i q
theorem d2_rhs0 (i : S128x1024.Idx) (q : dot_S128x4096_S1024x4096_S128x1024_1_1_0_0_n_n.contr.Idx) : (dot_S128x4096_S1024x4096_S128x1024_1_1_0_0_n_n.rhsIdx i q 0).val = (i 1).val := by
  unfold DotDims.rhsIdx
  rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
  rfl
theorem d2_rhs1 (i : S128x1024.Idx) (q : dot_S128x4096_S1024x4096_S128x1024_1_1_0_0_n_n.contr.Idx) : (dot_S128x4096_S1024x4096_S128x1024_1_1_0_0_n_n.rhsIdx i q 1).val = (q ⟨0, by decide⟩).val :=
  dot_S128x4096_S1024x4096_S128x1024_1_1_0_0_n_n.rhsIdx_val_of_single rfl i q

/-! ## Each product into a zero accumulator is the sum over the contracted coordinate -/

/-- The first product at (p, o): the inner product of row `p` of the tokens with row `o` of the first weight matrix. -/
theorem first_product (a : FVec Ideal S128x1024 .bf16) (w : FVec Ideal S4096x1024 .bf16) (p : Fin 128) (c : Fin 4096) :
    matmul dot_S128x1024_S4096x1024_S128x4096_1_1_0_0_n_n none a w (constant (F := Ideal) S128x4096 .f32 0x00000000#32) (ix2 p c) = ∑ k : Fin 1024, a (ix2 p k) * w (ix2 c k) := by
  simp only [matmul]
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p c) ((contrEquiv1 dot_S128x1024_S4096x1024_S128x4096_1_1_0_0_n_n 1024 rfl rfl).symm k) = ix2 p k := funext fun ax => Fin.ext (by
    match ax with
    | ⟨0, _⟩ => exact d1_lhs0 _ _
    | ⟨1, _⟩ => exact (d1_lhs1 _ _).trans hk)
  have er : dot_S128x1024_S4096x1024_S128x4096_1_1_0_0_n_n.rhsIdx (ix2 p c) ((contrEquiv1 dot_S128x1024_S4096x1024_S128x4096_1_1_0_0_n_n 1024 rfl rfl).symm k) = ix2 c k := funext fun ax => Fin.ext (by
    match ax with
    | ⟨0, _⟩ => exact d1_rhs0 _ _
    | ⟨1, _⟩ => exact (d1_rhs1 _ _).trans hk)
  rw [el, er]

/-- The second product at (p, h): the inner product of row `p` of the first layer with row `h` of the second weight matrix. -/
theorem second_product (a : FVec Ideal S128x4096 .bf16) (w : FVec Ideal S1024x4096 .bf16) (p : Fin 128) (c : Fin 1024) :
    matmul dot_S128x4096_S1024x4096_S128x1024_1_1_0_0_n_n none a w (constant (F := Ideal) S128x1024 .f32 0x00000000#32) (ix2 p c) = ∑ k : Fin 4096, a (ix2 p k) * w (ix2 c k) := by
  simp only [matmul]
  rw [Ideal.matmul_constant_zero_apply, ← Equiv.sum_comp (contrEquiv1 dot_S128x4096_S1024x4096_S128x1024_1_1_0_0_n_n 4096 rfl rfl).symm]
  refine Finset.sum_congr rfl fun k _ => ?_
  have hk := contrEquiv1_symm_val dot_S128x4096_S1024x4096_S128x1024_1_1_0_0_n_n 4096 rfl rfl k
  have el : dot_S128x4096_S1024x4096_S128x1024_1_1_0_0_n_n.lhsIdx (ix2 p c) ((contrEquiv1 dot_S128x4096_S1024x4096_S128x1024_1_1_0_0_n_n 4096 rfl rfl).symm k) = ix2 p k := funext fun ax => Fin.ext (by
    match ax with
    | ⟨0, _⟩ => exact d2_lhs0 _ _
    | ⟨1, _⟩ => exact (d2_lhs1 _ _).trans hk)
  have er : dot_S128x4096_S1024x4096_S128x1024_1_1_0_0_n_n.rhsIdx (ix2 p c) ((contrEquiv1 dot_S128x4096_S1024x4096_S128x1024_1_1_0_0_n_n 4096 rfl rfl).symm k) = ix2 c k := funext fun ax => Fin.ext (by
    match ax with
    | ⟨0, _⟩ => exact d2_rhs0 _ _
    | ⟨1, _⟩ => exact (d2_rhs1 _ _).trans hk)
  rw [el, er]

/-! ## The payload at an index -/

/-- Entry (u, p, h) of the stored block, from the five loaded blocks (the unit coordinate `u` is 0). -/
theorem payload_at (x : Vec Ideal S1x128x1024 .f32) (w1 : Vec Ideal S1x4096x1024 .bf16) (c1 : Vec Ideal S1x1x4096 .f32)
    (w2 : Vec Ideal S1x1024x4096 .bf16) (c2 : Vec Ideal S1x1x1024 .f32) (u : Fin 1) (p : Fin 128) (h : Fin 1024) :
    k0_pay1 (F := Ideal) x w1 c1 w2 c2 (ix3 u p h)
      = (∑ o : Fin 4096, ((∑ k : Fin 1024, x (ix3 (0 : Fin 1) p k) * w1 (ix3 (0 : Fin 1) o k)) + c1 (ix3 (0 : Fin 1) (0 : Fin 1) o))
            * w2 (ix3 (0 : Fin 1) h o)) + c2 (ix3 (0 : Fin 1) (0 : Fin 1) h) := by
  unfold k0_pay1
  rw [shapeCast_ab_1ab_apply, addf_apply, second_product, broadcastTo_1b_ab_apply, shapeCast_1ab_ab_apply]
  congr 1
  refine Finset.sum_congr rfl fun o _ => ?_
  rw [truncf_apply, addf_apply, first_product, broadcastTo_1b_ab_apply, shapeCast_1ab_ab_apply, shapeCast_1ab_ab_apply]
  congr 1
  congr 1
  refine Finset.sum_congr rfl fun k _ => ?_
  rw [truncf_apply, shapeCast_1ab_ab_apply, shapeCast_1ab_ab_apply]

end Cert.KernelIdeal.Body

end
-- ==== Proof.Blocks.lean ====
/-
  The arrays the kernel's windows read, as the region finds them, and each window's block at a grid point as entries
  of the ARGUMENT arrays.

  Before the region the host converts the two weight arrays to a narrower float format (the identity on the extended
  reals) and gives each bias a unit middle axis: entry (g, 0, o) of the reshaped first bias is entry (g, o) of the
  argument. The grid has 8 × 16 points; at point (g, s) the token window's block is rows 128·s … 128·s + 127 of group
  `g`, each weight window's block is the whole matrix of group `g`, each bias window's block the one row of group `g`.
-/
import proofs.«104736_j37632503447554_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays at region entry -/

/-- The converted first weight array is the argument, entry by entry. -/
theorem entry_w1 (c : Dev nD) :
    (V m c main_v0 : S8x4096x1024.Idx → EReal) = (m ((c : Thread nD τ).loc main_arg1) : S8x4096x1024.Idx → EReal) := by
  dsimp only [Gen.V, Gen.hostOps0]; after_results; rfl

/-- The converted second weight array likewise. -/
theorem entry_w2 (c : Dev nD) :
    (V m c main_v1 : S8x1024x4096.Idx → EReal) = (m ((c : Thread nD τ).loc main_arg3) : S8x1024x4096.Idx → EReal) := by
  dsimp only [Gen.V, Gen.hostOps0]; after_results; rfl

/-- The first bias with its unit axis. -/
theorem entry_b1 (c : Dev nD) :
    (V m c main_v2 : S8x1x4096.Idx → EReal)
      = shapeCast S8x1x4096 (m ((c : Thread nD τ).loc main_arg2) : S8x4096.Idx → EReal) shapeCasts_S8x4096_S8x1x4096 := by
  dsimp only [Gen.V, Gen.hostOps0]; after_results; rfl

/-- The second bias with its unit axis. -/
theorem entry_b2 (c : Dev nD) :
    (V m c main_v3 : S8x1x1024.Idx → EReal)
      = shapeCast S8x1x1024 (m ((c : Thread nD τ).loc main_arg4) : S8x1024.Idx → EReal) shapeCasts_S8x1024_S8x1x1024 := by
  dsimp only [Gen.V, Gen.hostOps0]; after_results; rfl

/-- A unit middle axis added by a reshape: entry (g, u, o) of the [a, 1, b] array is entry (g, o) of the [a, b] one. -/
theorem shapeCast_ab_a1b_apply {α : Type} {a b : ℕ} (x : (⟨2, ![a, b]⟩ : Shape).Idx → α)
    (h : (⟨2, ![a, b]⟩ : Shape).ShapeCasts ⟨3, ![a, 1, b]⟩) (g : Fin a) (u : Fin 1) (o : Fin b) :
    shapeCast ⟨3, ![a, 1, b]⟩ x h (ix3 g u o) = x (ix2 g o) :=
  shapeCast_apply x h _ _ (by
    have hu : u.val = 0 := by omega
    rw [Shape.rowMajor_val_three, Shape.rowMajor_val_two]
    show g.val * b + o.val = (g.val * 1 + u.val) * b + o.val
    rw [hu, Nat.mul_one, Nat.add_zero])

/-! ## The grid's index maps, decided once over its 128 points -/

/-- Every input window's block index at a point, against the output window's (g, s, 0): the token window moves with it;
    the weight and bias windows follow the group only. The output's block indices stay inside 8 × 16. -/
theorem idx_facts : ∀ t : Fin cfg0.N,
    (win0_0.index t (0 : Fin 3) = win0_5.index t (0 : Fin 3) ∧ win0_0.index t (1 : Fin 3) = win0_5.index t (1 : Fin 3) ∧ win0_0.index t (2 : Fin 3) = 0)
    ∧ (win0_1.index t (0 : Fin 3) = win0_5.index t (0 : Fin 3) ∧ win0_1.index t (1 : Fin 3) = 0 ∧ win0_1.index t (2 : Fin 3) = 0)
    ∧ (win0_2.index t (0 : Fin 3) = win0_5.index t (0 : Fin 3) ∧ win0_2.index t (1 : Fin 3) = 0 ∧ win0_2.index t (2 : Fin 3) = 0)
    ∧ (win0_3.index t (0 : Fin 3) = win0_5.index t (0 : Fin 3) ∧ win0_3.index t (1 : Fin 3) = 0 ∧ win0_3.index t (2 : Fin 3) = 0)
    ∧ (win0_4.index t (0 : Fin 3) = win0_5.index t (0 : Fin 3) ∧ win0_4.index t (1 : Fin 3) = 0 ∧ win0_4.index t (2 : Fin 3) = 0)
    ∧ win0_5.index t (2 : Fin 3) = 0 ∧ win0_5.index t (0 : Fin 3) ≤ 7 ∧ win0_5.index t (1 : Fin 3) ≤ 15 :=
  (by decide +kernel : ∀ t : Fin grid0.N, _)

/-- Every (group, row tile) is some point's output block. -/
theorem idx_onto : ∀ (g : Fin 8) (s : Fin 16), ∃ t : Fin cfg0.N, win0_5.index t = ![g.val, s.val, 0] :=
  (by decide +kernel : ∀ (g : Fin 8) (s : Fin 16), ∃ t : Fin grid0.N, win0_5.index t = ![g.val, s.val, 0])

/-! ## Each input block as entries of its argument -/

/-- The token block at a point: row `y 1` of the tile is row 128·s + `y 1` of group `g`. -/
theorem tok_block (c : Dev nD) (t : Fin cfg0.N) (y : S1x128x1024.Idx) (i : S8x2048x1024.Idx)
    (h0 : (i 0).val = win0_5.index t (0 : Fin 3)) (h1 : (i 1).val = win0_5.index t (1 : Fin 3) * 128 + (y 1).val)
    (h2 : (i 2).val = (y 2).val) :
    (iblk m c 0 t : Vec Ideal S1x128x1024 .f32) y = (m ((c : Thread nD τ).loc main_arg0) : S8x2048x1024.Idx → EReal) i := by
  obtain ⟨⟨e0, e1, e2⟩, -⟩ := idx_facts t
  unfold iblk
  rw [View.read_apply]
  show V m c main_arg0 _ = _
  rw [V_main_arg0]
  congr 1
  funext a
  apply Fin.ext
  have hy0 : (y 0).val < 1 := (y 0).isLt
  match a with
  | ⟨0, _⟩ => show win0_0.index t (0 : Fin 3) * 1 + 1 * (y 0).val = (i 0).val; omega
  | ⟨1, _⟩ => show win0_0.index t (1 : Fin 3) * 128 + 1 * (y 1).val = (i 1).val; omega
  | ⟨2, _⟩ => show win0_0.index t (2 : Fin 3) * 1024 + 1 * (y 2).val = (i 2).val; omega

/-- The first weight block at a point is the whole matrix of group `g`. -/
theorem w1_block (c : Dev nD) (t : Fin cfg0.N) (y : S1x4096x1024.Idx) (i : S8x4096x1024.Idx)
    (h0 : (i 0).val = win0_5.index t (0 : Fin 3)) (h1 : (i 1).val = (y 1).val) (h2 : (i 2).val = (y 2).val) :
    (iblk m c 1 t : Vec Ideal S1x4096x1024 .bf16) y = (m ((c : Thread nD τ).loc main_arg1) : S8x4096x1024.Idx → EReal) i := by
  obtain ⟨-, ⟨e0, e1, e2⟩, -⟩ := idx_facts t
  unfold iblk
  rw [View.read_apply]
  show (V m c main_v0 : S8x4096x1024.Idx → EReal) _ = _
  rw [entry_w1]
  congr 1
  funext a
  apply Fin.ext
  have hy0 : (y 0).val < 1 := (y 0).isLt
  match a with
  | ⟨0, _⟩ => show win0_1.index t (0 : Fin 3) * 1 + 1 * (y 0).val = (i 0).val; omega
  | ⟨1, _⟩ => show win0_1.index t (1 : Fin 3) * 4096 + 1 * (y 1).val = (i 1).val; omega
  | ⟨2, _⟩ => show win0_1.index t (2 : Fin 3) * 1024 + 1 * (y 2).val = (i 2).val; omega

/-- The second weight block at a point is the whole matrix of group `g`. -/
theorem w2_block (c : Dev nD) (t : Fin cfg0.N) (y : S1x1024x4096.Idx) (i : S8x1024x4096.Idx)
    (h0 : (i 0).val = win0_5.index t (0 : Fin 3)) (h1 : (i 1).val = (y 1).val) (h2 : (i 2).val = (y 2).val) :
    (iblk m c 3 t : Vec Ideal S1x1024x4096 .bf16) y = (m ((c : Thread nD τ).loc main_arg3) : S8x1024x4096.Idx → EReal) i := by
  obtain ⟨-, -, -, ⟨e0, e1, e2⟩, -⟩ := idx_facts t
  unfold iblk
  rw [View.read_apply]
  show (V m c main_v1 : S8x1024x4096.Idx → EReal) _ = _
  rw [entry_w2]
  congr 1
  funext a
  apply Fin.ext
  have hy0 : (y 0).val < 1 := (y 0).isLt
  match a with
  | ⟨0, _⟩ => show win0_3.index t (0 : Fin 3) * 1 + 1 * (y 0).val = (i 0).val; omega
  | ⟨1, _⟩ => show win0_3.index t (1 : Fin 3) * 1024 + 1 * (y 1).val = (i 1).val; omega
  | ⟨2, _⟩ => show win0_3.index t (2 : Fin 3) * 4096 + 1 * (y 2).val = (i 2).val; omega

/-- The first bias block at a point is the bias row of group `g`. -/
theorem b1_block (c : Dev nD) (t : Fin cfg0.N) (y : S1x1x4096.Idx) (g : Fin 8) (o : Fin 4096)
    (h0 : g.val = win0_5.index t (0 : Fin 3)) (h2 : o.val = (y 2).val) :
    (iblk m c 2 t : Vec Ideal S1x1x4096 .f32) y = (m ((c : Thread nD τ).loc main_arg2) : S8x4096.Idx → EReal) (ix2 g o) := by
  obtain ⟨-, -, ⟨e0, e1, e2⟩, -⟩ := idx_facts t
  unfold iblk
  rw [View.read_apply]
  show (V m c main_v2 : S8x1x4096.Idx → EReal) _ = _
  rw [entry_b1]
  refine (congrArg _ (?_ : _ = ix3 g (0 : Fin 1) o)).trans (shapeCast_ab_a1b_apply _ _ g 0 o)
  funext a
  apply Fin.ext
  have hy0 : (y 0).val < 1 := (y 0).isLt
  have hy1 : (y 1).val < 1 := (y 1).isLt
  match a with
  | ⟨0, _⟩ => show win0_2.index t (0 : Fin 3) * 1 + 1 * (y 0).val = g.val; omega
  | ⟨1, _⟩ => show win0_2.index t (1 : Fin 3) * 1 + 1 * (y 1).val = 0; omega
  | ⟨2, _⟩ => show win0_2.index t (2 : Fin 3) * 4096 + 1 * (y 2).val = o.val; omega

/-- The second bias block at a point is the bias row of group `g`. -/
theorem b2_block (c : Dev nD) (t : Fin cfg0.N) (y : S1x1x1024.Idx) (g : Fin 8) (h : Fin 1024)
    (h0 : g.val = win0_5.index t (0 : Fin 3)) (h2 : h.val = (y 2).val) :
    (iblk m c 4 t : Vec Ideal S1x1x1024 .f32) y = (m ((c : Thread nD τ).loc main_arg4) : S8x1024.Idx → EReal) (ix2 g h) := by
  obtain ⟨-, -, -, -, ⟨e0, e1, e2⟩, -⟩ := idx_facts t
  unfold iblk
  rw [View.read_apply]
  show (V m c main_v3 : S8x1x1024.Idx → EReal) _ = _
  rw [entry_b2]
  refine (congrArg _ (?_ : _ = ix3 g (0 : Fin 1) h)).trans (shapeCast_ab_a1b_apply _ _ g 0 h)
  funext a
  apply Fin.ext
  have hy0 : (y 0).val < 1 := (y 0).isLt
  have hy1 : (y 1).val < 1 := (y 1).isLt
  match a with
  | ⟨0, _⟩ => show win0_4.index t (0 : Fin 3) * 1 + 1 * (y 0).val = g.val; omega
  | ⟨1, _⟩ => show win0_4.index t (1 : Fin 3) * 1 + 1 * (y 1).val = 0; omega
  | ⟨2, _⟩ => show win0_4.index t (2 : Fin 3) * 1024 + 1 * (y 2).val = h.val; omega

/-! ## The same, with every index written by coordinates: (g, s) the point's output block, `r` = 128·s + p -/

theorem tok_at (c : Dev nD) (t : Fin cfg0.N) (g : Fin 8) (r : Fin 2048) (p : Fin 128) (k : Fin 1024) (u : Fin 1)
    (hg : g.val = win0_5.index t (0 : Fin 3)) (hr : r.val = win0_5.index t (1 : Fin 3) * 128 + p.val) :
    (iblk m c 0 t : Vec Ideal S1x128x1024 .f32) (ix3 u p k)
      = (m ((c : Thread nD τ).loc main_arg0) : S8x2048x1024.Idx → EReal) (ix3 g r k) :=
  tok_block m c t (ix3 u p k) (ix3 g r k) hg hr rfl

theorem w1_at (c : Dev nD) (t : Fin cfg0.N) (g : Fin 8) (o : Fin 4096) (k : Fin 1024) (u : Fin 1)
    (hg : g.val = win0_5.index t (0 : Fin 3)) :
    (iblk m c 1 t : Vec Ideal S1x4096x1024 .bf16) (ix3 u o k)
      = (m ((c : Thread nD τ).loc main_arg1) : S8x4096x1024.Idx → EReal) (ix3 g o k) :=
  w1_block m c t (ix3 u o k) (ix3 g o k) hg rfl rfl

theorem w2_at (c : Dev nD) (t : Fin cfg0.N) (g : Fin 8) (h : Fin 1024) (o : Fin 4096) (u : Fin 1)
    (hg : g.val = win0_5.index t (0 : Fin 3)) :
    (iblk m c 3 t : Vec Ideal S1x1024x4096 .bf16) (ix3 u h o)
      = (m ((c : Thread nD τ).loc main_arg3) : S8x1024x4096.Idx → EReal) (ix3 g h o) :=
  w2_block m c t (ix3 u h o) (ix3 g h o) hg rfl rfl

theorem b1_at (c : Dev nD) (t : Fin cfg0.N) (g : Fin 8) (o : Fin 4096) (u u' : Fin 1)
    (hg : g.val = win0_5.index t (0 : Fin 3)) :
    (iblk m c 2 t : Vec Ideal S1x1x4096 .f32) (ix3 u u' o)
      = (m ((c : Thread nD τ).loc main_arg2) : S8x4096.Idx → EReal) (ix2 g o) :=
  b1_block m c t (ix3 u u' o) g o hg rfl

theorem b2_at (c : Dev nD) (t : Fin cfg0.N) (g : Fin 8) (h : Fin 1024) (u u' : Fin 1)
    (hg : g.val = win0_5.index t (0 : Fin 3)) :
    (iblk m c 4 t : Vec Ideal S1x1x1024 .f32) (ix3 u u' h)
      = (m ((c : Thread nD τ).loc main_arg4) : S8x1024.Idx → EReal) (ix2 g h) :=
  b2_block m c t (ix3 u u' h) g h hg rfl

end Cert.KernelIdeal.Blocks

end
-- ==== Proof.KernelValue.lean ====
/-
  The kernel's result array after the run is `twoLayer` of the five argument arrays.

  The output window's block at grid point (g, s) is rows 128·s … 128·s + 127 of group `g` of the result. What the point
  writes back there is the body's payload of the point's five input blocks; reading the payload at (0, p, h) and each
  input block as entries of its argument gives entry (g, 128·s + p, h) of `twoLayer`: the rows of a tile meet only the
  weights and biases of their own group, and the sums over the two contracted axes run over whole axes inside every
  block, so no sum is split across points. The 8 × 16 blocks tile the array — row `r` of group `g` lies in the block of
  point (g, r / 128) — so the array as a whole ends holding `twoLayer`.
-/
import proofs.«104736_j37632503447554_1_alg».proof.Proof.Gen.KernelIdeal.Value
import proofs.«104736_j37632503447554_1_alg».proof.Proof.Spec
import proofs.«104736_j37632503447554_1_alg».proof.Proof.BodyValue
import proofs.«104736_j37632503447554_1_alg».proof.Proof.Blocks

noncomputable section

namespace Cert.KernelIdeal.Whole

open Cert.KernelIdeal Cert.KernelIdeal.Gen Idealize.ShloMosaic Idealize.ShloMosaic.TcCoe Idealize.SL.Sem
open Idealize.ShloMosaic.ValueIdx Cert.TwoLayer Cert.KernelIdeal.Blocks
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The result array as a function of the argument arrays at launch. -/
abbrev result (c : Dev nD) : S8x2048x1024.Idx → EReal :=
  twoLayer (m ((c : Thread nD τ).loc main_arg0)) (m ((c : Thread nD τ).loc main_arg1)) (m ((c : Thread nD τ).loc main_arg2)) (m ((c : Thread nD τ).loc main_arg3)) (m ((c : Thread nD τ).loc main_arg4))

/-- What point `t` writes back is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S1x128x1024) hz, View.ld_unit_zero (S := S1x4096x1024) hz, View.ld_unit_zero (S := S1x1x4096) hz,
    View.ld_unit_zero (S := S1x1024x4096) hz, View.ld_unit_zero (S := S1x1x1024) hz]
  funext j
  obtain ⟨-, -, -, -, -, e52, e50, e51⟩ := idx_facts t
  have hj0 : (j 0).val < 1 := (j 0).isLt
  have hj1 : (j 1).val < 128 := (j 1).isLt
  have hj2 : (j 2).val < 1024 := (j 2).isLt
  -- the entry's coordinates inside the tile, (u, p, h), and inside the array, (g, r, h)
  obtain ⟨u, hu⟩ : ∃ u : Fin 1, u.val = (j 0).val := ⟨⟨_, hj0⟩, rfl⟩
  obtain ⟨p, hp⟩ : ∃ p : Fin 128, p.val = (j 1).val := ⟨⟨_, hj1⟩, rfl⟩
  obtain ⟨h, hh⟩ : ∃ h : Fin 1024, h.val = (j 2).val := ⟨⟨_, hj2⟩, rfl⟩
  obtain ⟨g, hg⟩ : ∃ g : Fin 8, g.val = win0_5.index t (0 : Fin 3) := ⟨⟨win0_5.index t (0 : Fin 3), by omega⟩, rfl⟩
  obtain ⟨r, hr⟩ : ∃ r : Fin 2048, r.val = win0_5.index t (1 : Fin 3) * 128 + p.val :=
    ⟨⟨win0_5.index t (1 : Fin 3) * 128 + p.val, by omega⟩, rfl⟩
  have hj : (win0 5).xinj (grid0.coords t) j = (ix3 u p h : S1x128x1024.Idx) :=
    funext fun a => Fin.ext (by
      match a with
      | ⟨0, _⟩ => exact hu.symm
      | ⟨1, _⟩ => exact hp.symm
      | ⟨2, _⟩ => exact hh.symm)
  have he : ((View.whole main_v4).slice ((win0 5).rect t)).emb j = (ix3 g r h : S8x2048x1024.Idx) := funext fun a => Fin.ext (by
    match a with
    | ⟨0, _⟩ => show win0_5.index t (0 : Fin 3) * 1 + 1 * (j 0).val = g.val; omega
    | ⟨1, _⟩ => show win0_5.index t (1 : Fin 3) * 128 + 1 * (j 1).val = r.val; omega
    | ⟨2, _⟩ => show win0_5.index t (2 : Fin 3) * 1024 + 1 * (j 2).val = h.val; omega)
  show k0_pay1 (F := Ideal) (iblk m c 0 t) (iblk m c 1 t) (iblk m c 2 t) (iblk m c 3 t) (iblk m c 4 t) ((win0 5).xinj (grid0.coords t) j)
      = result m c (((View.whole main_v4).slice ((win0 5).rect t)).emb j)
  rw [hj, he]
  refine ((Body.payload_at (iblk m c 0 t) (iblk m c 1 t) (iblk m c 2 t) (iblk m c 3 t) (iblk m c 4 t) u p h).trans ?_).trans
    (twoLayer_at (m ((c : Thread nD τ).loc main_arg0)) (m ((c : Thread nD τ).loc main_arg1)) (m ((c : Thread nD τ).loc main_arg2)) (m ((c : Thread nD τ).loc main_arg3)) (m ((c : Thread nD τ).loc main_arg4)) g r h).symm
  refine congrArg₂ (· + ·) (Finset.sum_congr rfl fun o _ => congrArg₂ (· * ·) ?_ ?_) ?_
  · refine Eq.trans ?_ (hidden_at (m ((c : Thread nD τ).loc main_arg0)) (m ((c : Thread nD τ).loc main_arg1)) (m ((c : Thread nD τ).loc main_arg2)) g r o).symm
    refine congrArg₂ (· + ·) (Finset.sum_congr rfl fun k _ => congrArg₂ (· * ·) ?_ ?_) ?_
    · exact tok_at m c t g r p k 0 hg hr
    · exact w1_at m c t g o k 0 hg
    · exact b1_at m c t g o 0 0 hg
  · exact w2_at m c t g h o 0 hg
  · exact b2_at m c t g h 0 0 hg

/-- An index of the array is in point `t`'s block iff each coordinate is in the block's range on its axis. -/
theorem mem_blk (t : Fin cfg0.N) (i : S8x2048x1024.Idx) :
    i ∈ ((cfg0.win 5).blk t).view.set ↔ ∀ a : Fin 3, win0_5.index t a * S1x128x1024.size a ≤ (i a).val
      ∧ (i a).val < win0_5.index t a * S1x128x1024.size a + S1x128x1024.size a := by
  show i ∈ ((View.whole main_v4).slice (win0_5.rect t)).set ↔ _
  rw [View.set_slice_whole, Rect.mem_set_unit]
  exact Iff.rfl

/-- Every index of the result lies in some point's block: row `r` of group `g` in the block of (g, r / 128). -/
theorem cover (i : S8x2048x1024.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 128, by omega⟩
  have q0 : win0_5.index t (0 : Fin 3) = (i 0).val := congrFun ht 0
  have q1 : win0_5.index t (1 : Fin 3) = (i 1).val / 128 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 1024 ≤ (i 2).val ∧ (i 2).val < win0_5.index t (2 : Fin 3) * 1024 + 1024; omega

/-- So the result array after the run is `result`. -/
theorem final (c : Dev nD) : (dats m 0 c).arrAt 5 cfg0.N = result m c :=
  (dats m 0 c).arrAt_eq_of_cover 5 (result m c) (fun t _ => flushed_eq m c t) cover

/-- The kernel's run, read: the result array at `twoLayer` of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4)) :=
  (θ_run defs _ _).mono (fun _ h c => ⟨(h c).1.trans (final m c), (h c).2⟩) (Value.run_blocks m ρ)

end Cert.KernelIdeal.Whole

end
-- ==== Proof.lean ====
/-
  A grouped two-layer linear map: kernel against reference, on the extended reals.

  The tokens form 8 groups of 2048 rows of width 1024; group `g` owns a first layer (weights 4096 × 1024, bias 4096) and a
  second layer (weights 1024 × 4096, bias 1024), applied one after the other with nothing in between:

    out[g, r, h] = (Σ_o ((Σ_k x[g, r, k] · W1[g, o, k]) + b1[g, o]) · W2[g, h, o]) + b2[g, h]      (`Cert.TwoLayer.twoLayer`).

  The reference computes this with two batched products over the whole arrays. The kernel walks a grid of 8 groups × 16
  row tiles; at each point it takes 128 rows of one group and that group's weights and biases whole, and does both layers
  for those rows. It narrows the float format of the weights beforehand and of the rows and the intermediate result
  inside the body, which on the extended reals changes nothing, and it accumulates each product into zero. Both
  contracted axes lie whole inside every block, so each entry of the result is computed at exactly one grid point by the
  very sum the reference writes: the two sides are the same function of the arguments term for term, and no law of
  arithmetic beyond 0 + s = s is used — in particular the inputs' finiteness plays no part in the equality of the results.

  The parts: `Spec` states the function; `RefValue` reads the reference's run as that function; `BodyValue` reads the
  kernel body's stored block at an index; `Blocks` reads each input block as entries of its argument; `KernelValue`
  puts the 128 written blocks together into the whole result array. The three programs' termination, freedom from
  faults and unchanged arguments are their generated frame runs; the idealised kernel is the kernel's own text read on
  the extended reals with no rewrite applied, so there is nothing to preserve.
-/
import proofs.«104736_j37632503447554_1_alg».proof.Defs
import proofs.«104736_j37632503447554_1_alg».proof.Proof.Gen.Kernel
import proofs.«104736_j37632503447554_1_alg».proof.Proof.Gen.Kernel.Skeleton
import proofs.«104736_j37632503447554_1_alg».proof.Proof.Gen.Kernel.Launch
import proofs.«104736_j37632503447554_1_alg».proof.Proof.Gen.Kernel.Points
import proofs.«104736_j37632503447554_1_alg».proof.Proof.Gen.Kernel.Frame
import proofs.«104736_j37632503447554_1_alg».proof.Proof.Gen.KernelIdeal
import proofs.«104736_j37632503447554_1_alg».proof.Proof.Gen.KernelIdeal.Skeleton
import proofs.«104736_j37632503447554_1_alg».proof.Proof.Gen.KernelIdeal.Launch
import proofs.«104736_j37632503447554_1_alg».proof.Proof.Gen.KernelIdeal.Points
import proofs.«104736_j37632503447554_1_alg».proof.Proof.Gen.KernelIdeal.Frame
import proofs.«104736_j37632503447554_1_alg».proof.Proof.Gen.ReferenceIdeal
import proofs.«104736_j37632503447554_1_alg».proof.Proof.Gen.ReferenceIdeal.Run
import proofs.«104736_j37632503447554_1_alg».proof.Proof.Gen.ReferenceIdeal.Read
import proofs.«104736_j37632503447554_1_alg».proof.Proof.Gen.KernelIdeal.Value
import proofs.«104736_j37632503447554_1_alg».proof.Proof.Gen.Pre_finite_inputs
import proofs.«104736_j37632503447554_1_alg».proof.Proof.RefValue
import proofs.«104736_j37632503447554_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the five arguments, both runs end with the result array at `twoLayer` of the arguments:
    the kernel's by `Cert.KernelIdeal.Whole.run`, the reference's by its run read through `reference_eq`. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
